-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S16384x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩
abbrev S16384x16x64 : Shape := ⟨3, ![16384, 16, 64]⟩

abbrev nBuf : Space → Nat
  | .hbm => 23
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S16384x16x64, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  reduces_S512x16x16_S512x16 : S512x16x16.Reduces [2] S512x16
  shapeCasts_S512x16_S512x16x1 : S512x16.ShapeCasts S512x16x1
  broadcasts_S512x16x1_S512x16x16 : S512x16x1.Broadcasts S512x16x16
  shapeCasts_S512x16x64_S512x1024 : S512x16x64.ShapeCasts S512x1024
  shapeCasts_S16384x1024_S16384x16x64 : S16384x1024.ShapeCasts S16384x16x64
  dot_S512x1024_S1024x1024_S512x1024_1_0_0_1_n_n_wf : DotDims.WF S512x1024 S1024x1024 S512x1024 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .f32 = 32 ∨ (Rect.block (s := S16384x1024) S512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S16384x16x64 : Shape := ⟨3, ![16384, 16, 64]⟩
abbrev S_ : Shape := ⟨0, ![]⟩
abbrev S16384x16x16 : Shape := ⟨3, ![16384, 16, 16]⟩
abbrev S16384x16 : Shape := ⟨2, ![16384, 16]⟩
abbrev S16384x16x1 : Shape := ⟨3, ![16384, 16, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x16x64, .f32⟩
  | .hbm, ⟨25, _⟩ => ⟨S16384x16x64, .f32⟩
  | .hbm, ⟨26, _⟩ => ⟨S16384x16x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x16x16, .f32⟩
  | .hbm, ⟨32, _⟩ => ⟨S16384x16x16, .f32⟩
  | .hbm, ⟨33, _⟩ => ⟨S16384x16x16, .f32⟩
  | .hbm, ⟨34, _⟩ => ⟨S_, .f32⟩
  | .hbm, ⟨35, _⟩ => ⟨S16384x16, .f32⟩
  | .hbm, ⟨36, _⟩ => ⟨S_, .f32⟩
  | .hbm, ⟨37, _⟩ => ⟨S16384x16, .f32⟩
  | .hbm, ⟨38, _⟩ => ⟨S16384x16, .f32⟩
  | .hbm, ⟨39, _⟩ => ⟨S16384x16x1, .f32⟩
  | .hbm, ⟨40, _⟩ => ⟨S16384x16x16, .f32⟩
  | .hbm, ⟨41, _⟩ => ⟨S16384x16x16, .f32⟩
  | .hbm, ⟨42, _⟩ => ⟨S16384x16x16, .f32⟩
  | .hbm, ⟨43, _⟩ => ⟨S_, .f32⟩
  | .hbm, ⟨44, _⟩ => ⟨S16384x16, .f32⟩
  | .hbm, ⟨45, _⟩ => ⟨S16384x16x1, .f32⟩
  | .hbm, ⟨46, _⟩ => ⟨S16384x16x16, .f32⟩
  | .hbm, ⟨47, _⟩ => ⟨S16384x16x16, .f32⟩
  | .hbm, ⟨48, _⟩ => ⟨S16384x16x64, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x16x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  bcast_S_S16384x16x16 : S_.BroadcastsInDim S16384x16x16 (![] : Fin 0 → Fin S16384x16x16.rank)
  reducesTo_S16384x16x16_S16384x16_d2 : S16384x16x16.ReducesTo [2] S16384x16
  h_S_ : 0 < S_.numel
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S16384x16x1_S16384x16x16_0_1_2 : S16384x16x1.BroadcastsInDim S16384x16x16 (![0, 1, 2] : Fin 3 → Fin S16384x16x16.rank)
  shapeCasts_S16384x16x64_S16384x1024 : S16384x16x64.ShapeCasts S16384x1024
  dot_S16384x1024_S1024x1024_S16384x1024_1_0_0_1_n_n_wf : DotDims.WF S16384x1024 S1024x1024 S16384x1024 [1] [0] [0] [1] [] []
  dot_S16384x16x64_S16384x16x64_S16384x16x16_2_2_1_1_0_0_wf : DotDims.WF S16384x16x64 S16384x16x64 S16384x16x16 [2] [2] [1] [1] [0] [0]
  dot_S16384x16x16_S16384x16x64_S16384x16x64_2_1_1_2_0_0_wf : DotDims.WF S16384x16x16 S16384x16x64 S16384x16x64 [2] [1] [1] [2] [0] [0]

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x16x64_S16384x16x64_S16384x16x16_2_2_1_1_0_0 : DotDims S16384x16x64 S16384x16x64 S16384x16x16 where
  lhsContracting := [2]
  rhsContracting := [2]
  lhsNonContracting := [1]
  rhsNonContracting := [1]
  lhsBatch := [0]
  rhsBatch := [0]
  wf := dot_S16384x16x64_S16384x16x64_S16384x16x16_2_2_1_1_0_0_wf
def dot_S16384x16x16_S16384x16x64_S16384x16x64_2_1_1_2_0_0 : DotDims S16384x16x16 S16384x16x64 S16384x16x64 where
  lhsContracting := [2]
  rhsContracting := [1]
  lhsNonContracting := [1]
  rhsNonContracting := [2]
  lhsBatch := [0]
  rhsBatch := [0]
  wf := dot_S16384x16x16_S16384x16x64_S16384x16x64_2_1_1_2_0_0_wf

class Facts : Prop extends Facts₀ where

variable [Facts]
-- ==== Proof.RowSpec.lean ====
/-
  Attention across the heads of ONE token, as a function of that token's row and of the weights, on the extended
  reals. A row `x` of 1024 entries is projected three times (`x ↦ x · Wᵀ + b`) to a query, a key and a value row,
  each read as 16 heads of 64 lanes (entry `h · 64 + d` is lane `d` of head `h`). Head `h`'s score against head
  `g` is the scaled inner product of their query and key lanes; a row of scores becomes weights by the softmax
  (subtract the row's maximum, exponentiate, divide by the row's sum); head `h`'s output lanes are the weighted sum
  of the heads' value lanes; the 1024 output lanes are projected once more.
  Nothing here mentions a program: both programs' results are shown to be this function, row by row.
-/
import Idealize.ShloMosaic.PureOps.Ideal

noncomputable section

open scoped BigOperators

namespace Cert.HeadAttn

open Idealize.ShloMosaic

/-- Entry `h · 64 + d` of a 1024-wide row: lane `d` of head `h`. -/
def col (h : Fin 16) (d : Fin 64) : Fin 1024 := ⟨h.val * 64 + d.val, by have := h.isLt; have := d.isLt; omega⟩

/-- The head an entry of a 1024-wide row belongs to … -/
def headOf (j : Fin 1024) : Fin 16 := ⟨j.val / 64, by have := j.isLt; omega⟩

/-- … and its lane inside that head. -/
def laneOf (j : Fin 1024) : Fin 64 := ⟨j.val % 64, Nat.mod_lt _ (by decide)⟩

theorem col_headOf_laneOf (j : Fin 1024) : col (headOf j) (laneOf j) = j :=
  Fin.ext (by show j.val / 64 * 64 + j.val % 64 = j.val; omega)

theorem headOf_col (h : Fin 16) (d : Fin 64) : headOf (col h d) = h :=
  Fin.ext (by have := d.isLt; show (h.val * 64 + d.val) / 64 = h.val; omega)

theorem laneOf_col (h : Fin 16) (d : Fin 64) : laneOf (col h d) = d :=
  Fin.ext (by have := d.isLt; show (h.val * 64 + d.val) % 64 = d.val; omega)

/-- The value a row maximum starts from: what the pattern of −∞ denotes. -/
def floorVal : EReal := Ideal.ofBits .f32 0xFF800000#32

/-- A linear layer on one row: entry `e` is `Σₖ x k · W e k + b e` (the weight matrix is stored output-major). -/
def proj (x : Fin 1024 → EReal) (W : Fin 1024 → Fin 1024 → EReal) (b : Fin 1024 → EReal) (e : Fin 1024) : EReal :=
  (∑ k : Fin 1024, x k * W e k) + b e

/-- Head `h`'s score against head `g`: the inner product of their 64 query and key lanes, times the scale `c`. -/
def score (c : EReal) (q k : Fin 1024 → EReal) (h g : Fin 16) : EReal :=
  (∑ d : Fin 64, q (col h d) * k (col g d)) * c

/-- The maximum of a row of 16 scores (taken from −∞, and once more against −∞). -/
def top (s : Fin 16 → EReal) : EReal :=
  max floorVal ((Finset.univ : Finset (Fin 16)).fold max floorVal s)

/-- The exponential of a score less its row's maximum. -/
def expo (s : Fin 16 → Fin 16 → EReal) (h g : Fin 16) : EReal := Ideal.exp (s h g - top (s h))

/-- The softmax weight: that exponential over the sum of its row's exponentials. -/
def weight (s : Fin 16 → Fin 16 → EReal) (h g : Fin 16) : EReal :=
  Ideal.div (expo s h g) (∑ g' : Fin 16, expo s h g')

/-- Entry `j` of the mixed row: the weights of `j`'s head against every head `g`, times `g`'s value at `j`'s lane. -/
def mix (p : Fin 16 → Fin 16 → EReal) (v : Fin 1024 → EReal) (j : Fin 1024) : EReal :=
  ∑ g : Fin 16, p (headOf j) g * v (col g (laneOf j))

/-- One token's output row. -/
def out (c : EReal) (x : Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) (e : Fin 1024) : EReal :=
  proj (mix (weight (score c (proj x Wq bq) (proj x Wk bk))) (proj x Wv bv)) Wo bo e

end Cert.HeadAttn

end
-- ==== Proof.BlockProducts.lean ====
/-
  The three matrix products of one 512-token block, each read at an entry on the extended reals, into the zero
  accumulator. The plain product `[512, 1024] × [1024, 1024]` at `(r, e)` is `Σₖ A (r, k) · B (k, e)`. The product batched
  over the token axis that contracts the lanes of two `[512, 16, 64]` arrays, at `(r, h, g)`, is `Σ_d Q (r, h, d) · K (r, g, d)`.
  The batched product of a `[512, 16, 16]` array with a `[512, 16, 64]` one that contracts the heads, at `(r, h, d)`, is
  `Σ_g P (r, h, g) · V (r, g, d)`. In each the operands' indices are computed from the product's dimension numbers, one
  coordinate at a time, and the contraction index runs over `Fin` of the contracted extent.
-/
import proofs.«107367_j4509715661508_1_alg».proof.Proof.Gen.KernelIdeal
import Idealize.ShloMosaic.Lib.ValueIdx
import Idealize.ShloMosaic.PureOps.Ideal.Laws

noncomputable section

open scoped BigOperators

namespace Cert.HeadAttn.Kern

open Idealize.ShloMosaic Idealize.ShloMosaic.ValueIdx Cert.KernelIdeal

theorem matmul_plain_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem matmul_plain_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The plain product at `(r, e)`: row `r` of the left operand against column `e` of the right one. -/
theorem matmul_plain (A : FVec Ideal S512x1024 .bf16) (B : FVec Ideal S1024x1024 .bf16) (r : Fin 512) (e : Fin 1024) :
    matmul dot_S512x1024_S1024x1024_S512x1024_1_0_0_1_n_n none A B (constant S512x1024 .f32 0x00000000#32) (ix2 r e)
      = ∑ k : Fin 1024, A (ix2 r k) * B (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun a => Fin.ext (by
    match a with
    | ⟨0, _⟩ => exact matmul_plain_lhs_0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun a => Fin.ext (by
    match a with
    | ⟨0, _⟩ => exact (dot_S512x1024_S1024x1024_S512x1024_1_0_0_1_n_n.rhsIdx_val_of_single rfl _ _).trans hk
    | ⟨1, _⟩ => exact matmul_plain_rhs_1 _ _)
  rw [el, er]

theorem matmul_lanes_lhs_0 (i : S512x16x16.Idx) (q : dot_S512x16x64_S512x16x64_S512x16x16_2_2_1_1_0_0.contr.Idx) :
    (dot_S512x16x64_S512x16x64_S512x16x16_2_2_1_1_0_0.lhsIdx i q 0).val = (i 0).val := by
  unfold DotDims.lhsIdx
  rw [dif_pos (show (0 : Fin S512x16x64.rank) ∈ dot_S512x16x64_S512x16x64_S512x16x16_2_2_1_1_0_0.lhsBatch by decide)]
  rfl
theorem matmul_lanes_lhs_1 (i : S512x16x16.Idx) (q : dot_S512x16x64_S512x16x64_S512x16x16_2_2_1_1_0_0.contr.Idx) :
    (dot_S512x16x64_S512x16x64_S512x16x16_2_2_1_1_0_0.lhsIdx i q 1).val = (i 1).val := by
  unfold DotDims.lhsIdx
  rw [dif_neg (show ¬(1 : Fin S512x16x64.rank) ∈ dot_S512x16x64_S512x16x64_S512x16x16_2_2_1_1_0_0.lhsBatch by decide), dif_pos (show (1 : Fin S512x16x64.rank) ∈ dot_S512x16x64_S512x16x64_S512x16x16_2_2_1_1_0_0.lhsNonContracting by decide)]
  rfl
theorem matmul_lanes_rhs_0 (i : S512x16x16.Idx) (q : dot_S512x16x64_S512x16x64_S512x16x16_2_2_1_1_0_0.contr.Idx) :
    (dot_S512x16x64_S512x16x64_S512x16x16_2_2_1_1_0_0.rhsIdx i q 0).val = (i 0).val := by
  unfold DotDims.rhsIdx
  rw [dif_pos (show (0 : Fin S512x16x64.rank) ∈ dot_S512x16x64_S512x16x64_S512x16x16_2_2_1_1_0_0.rhsBatch by decide)]
  rfl
theorem matmul_lanes_rhs_1 (i : S512x16x16.Idx) (q : dot_S512x16x64_S512x16x64_S512x16x16_2_2_1_1_0_0.contr.Idx) :
    (dot_S512x16x64_S512x16x64_S512x16x16_2_2_1_1_0_0.rhsIdx i q 1).val = (i 2).val := by
  unfold DotDims.rhsIdx
  rw [dif_neg (show ¬(1 : Fin S512x16x64.rank) ∈ dot_S512x16x64_S512x16x64_S512x16x16_2_2_1_1_0_0.rhsBatch by decide), dif_pos (show (1 : Fin S512x16x64.rank) ∈ dot_S512x16x64_S512x16x64_S512x16x16_2_2_1_1_0_0.rhsNonContracting by decide)]
  rfl
/-- The product over the lanes, per token: at `(r, h, g)` head `h` of the left operand against head `g` of the right one. -/
theorem matmul_lanes (Q : FVec Ideal S512x16x64 .bf16) (K : FVec Ideal S512x16x64 .bf16) (r : Fin 512) (h g : Fin 16) :
    matmul dot_S512x16x64_S512x16x64_S512x16x16_2_2_1_1_0_0 none Q K (constant S512x16x16 .f32 0x00000000#32) (ix3 r h g)
      = ∑ d : Fin 64, Q (ix3 r h d) * K (ix3 r g d) := by
  simp only [matmul]
  rw [Ideal.matmul_constant_zero_apply, ← Equiv.sum_comp (contrEquiv1 dot_S512x16x64_S512x16x64_S512x16x16_2_2_1_1_0_0 64 rfl rfl).symm]
  refine Finset.sum_congr rfl fun d _ => ?_
  have hk := contrEquiv1_symm_val dot_S512x16x64_S512x16x64_S512x16x16_2_2_1_1_0_0 64 rfl rfl d
  have el : dot_S512x16x64_S512x16x64_S512x16x16_2_2_1_1_0_0.lhsIdx (ix3 r h g) ((contrEquiv1 dot_S512x16x64_S512x16x64_S512x16x16_2_2_1_1_0_0 64 rfl rfl).symm d) = ix3 r h d := funext fun a => Fin.ext (by
    match a with
    | ⟨0, _⟩ => exact matmul_lanes_lhs_0 _ _
    | ⟨1, _⟩ => exact matmul_lanes_lhs_1 _ _
    | ⟨2, _⟩ => exact (dot_S512x16x64_S512x16x64_S512x16x16_2_2_1_1_0_0.lhsIdx_val_of_single rfl _ _).trans hk)
  have er : dot_S512x16x64_S512x16x64_S512x16x16_2_2_1_1_0_0.rhsIdx (ix3 r h g) ((contrEquiv1 dot_S512x16x64_S512x16x64_S512x16x16_2_2_1_1_0_0 64 rfl rfl).symm d) = ix3 r g d := funext fun a => Fin.ext (by
    match a with
    | ⟨0, _⟩ => exact matmul_lanes_rhs_0 _ _
    | ⟨1, _⟩ => exact matmul_lanes_rhs_1 _ _
    | ⟨2, _⟩ => exact (dot_S512x16x64_S512x16x64_S512x16x16_2_2_1_1_0_0.rhsIdx_val_of_single rfl _ _).trans hk)
  rw [el, er]

theorem matmul_heads_lhs_0 (i : S512x16x64.Idx) (q : dot_S512x16x16_S512x16x64_S512x16x64_2_1_1_2_0_0.contr.Idx) :
    (dot_S512x16x16_S512x16x64_S512x16x64_2_1_1_2_0_0.lhsIdx i q 0).val = (i 0).val := by
  unfold DotDims.lhsIdx
  rw [dif_pos (show (0 : Fin S512x16x16.rank) ∈ dot_S512x16x16_S512x16x64_S512x16x64_2_1_1_2_0_0.lhsBatch by decide)]
  rfl
theorem matmul_heads_lhs_1 (i : S512x16x64.Idx) (q : dot_S512x16x16_S512x16x64_S512x16x64_2_1_1_2_0_0.contr.Idx) :
    (dot_S512x16x16_S512x16x64_S512x16x64_2_1_1_2_0_0.lhsIdx i q 1).val = (i 1).val := by
  unfold DotDims.lhsIdx
  rw [dif_neg (show ¬(1 : Fin S512x16x16.rank) ∈ dot_S512x16x16_S512x16x64_S512x16x64_2_1_1_2_0_0.lhsBatch by decide), dif_pos (show (1 : Fin S512x16x16.rank) ∈ dot_S512x16x16_S512x16x64_S512x16x64_2_1_1_2_0_0.lhsNonContracting by decide)]
  rfl
theorem matmul_heads_rhs_0 (i : S512x16x64.Idx) (q : dot_S512x16x16_S512x16x64_S512x16x64_2_1_1_2_0_0.contr.Idx) :
    (dot_S512x16x16_S512x16x64_S512x16x64_2_1_1_2_0_0.rhsIdx i q 0).val = (i 0).val := by
  unfold DotDims.rhsIdx
  rw [dif_pos (show (0 : Fin S512x16x64.rank) ∈ dot_S512x16x16_S512x16x64_S512x16x64_2_1_1_2_0_0.rhsBatch by decide)]
  rfl
theorem matmul_heads_rhs_2 (i : S512x16x64.Idx) (q : dot_S512x16x16_S512x16x64_S512x16x64_2_1_1_2_0_0.contr.Idx) :
    (dot_S512x16x16_S512x16x64_S512x16x64_2_1_1_2_0_0.rhsIdx i q 2).val = (i 2).val := by
  unfold DotDims.rhsIdx
  rw [dif_neg (show ¬(2 : Fin S512x16x64.rank) ∈ dot_S512x16x16_S512x16x64_S512x16x64_2_1_1_2_0_0.rhsBatch by decide), dif_pos (show (2 : Fin S512x16x64.rank) ∈ dot_S512x16x16_S512x16x64_S512x16x64_2_1_1_2_0_0.rhsNonContracting by decide)]
  rfl
/-- The product over the heads, per token: at `(r, h, d)` row `h` of the left operand against lane `d` of every head of the right one. -/
theorem matmul_heads (W : FVec Ideal S512x16x16 .bf16) (V : FVec Ideal S512x16x64 .bf16) (r : Fin 512) (h : Fin 16) (d : Fin 64) :
    matmul dot_S512x16x16_S512x16x64_S512x16x64_2_1_1_2_0_0 none W V (constant S512x16x64 .f32 0x00000000#32) (ix3 r h d)
      = ∑ g : Fin 16, W (ix3 r h g) * V (ix3 r g d) := by
  simp only [matmul]
  rw [Ideal.matmul_constant_zero_apply, ← Equiv.sum_comp (contrEquiv1 dot_S512x16x16_S512x16x64_S512x16x64_2_1_1_2_0_0 16 rfl rfl).symm]
  refine Finset.sum_congr rfl fun g _ => ?_
  have hk := contrEquiv1_symm_val dot_S512x16x16_S512x16x64_S512x16x64_2_1_1_2_0_0 16 rfl rfl g
  have el : dot_S512x16x16_S512x16x64_S512x16x64_2_1_1_2_0_0.lhsIdx (ix3 r h d) ((contrEquiv1 dot_S512x16x16_S512x16x64_S512x16x64_2_1_1_2_0_0 16 rfl rfl).symm g) = ix3 r h g := funext fun a => Fin.ext (by
    match a with
    | ⟨0, _⟩ => exact matmul_heads_lhs_0 _ _
    | ⟨1, _⟩ => exact matmul_heads_lhs_1 _ _
    | ⟨2, _⟩ => exact (dot_S512x16x16_S512x16x64_S512x16x64_2_1_1_2_0_0.lhsIdx_val_of_single rfl _ _).trans hk)
  have er : dot_S512x16x16_S512x16x64_S512x16x64_2_1_1_2_0_0.rhsIdx (ix3 r h d) ((contrEquiv1 dot_S512x16x16_S512x16x64_S512x16x64_2_1_1_2_0_0 16 rfl rfl).symm g) = ix3 r g d := funext fun a => Fin.ext (by
    match a with
    | ⟨0, _⟩ => exact matmul_heads_rhs_0 _ _
    | ⟨1, _⟩ => exact (dot_S512x16x16_S512x16x64_S512x16x64_2_1_1_2_0_0.rhsIdx_val_of_single rfl _ _).trans hk
    | ⟨2, _⟩ => exact matmul_heads_rhs_2 _ _)
  rw [el, er]

end Cert.HeadAttn.Kern

end
-- ==== Proof.LibPairAxes.lean ====
/-
  A matrix placed on two of three axes, read at an index. An `[a, b]` matrix cast to `[a, b, 1]` or to `[a, 1, b]` keeps
  its entries (the unit axis carries no position), and a broadcast of either to `[a, b, c]` repeats it along the unit axis:
  together they read the matrix at the first two, or the first and third, coordinates. General lemmas over any extents.
-/
import Idealize.ShloMosaic.Lib.Pipeline.Value
import Idealize.ShloMosaic.Lib.ValueIdx

noncomputable section

namespace Cert.LibPairAxes

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, on the first two axes: the matrix at `(i, j)`, whatever the third coordinate. -/
theorem bcast_cast_ab1 {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The two together, on the first and third axes: the matrix at `(i, k)`, whatever the second coordinate. -/
theorem bcast_cast_a1b {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Cert.LibPairAxes

end
-- ==== Proof.BlockLayout.lean ====
/-
  The layout steps and the two lane reductions of one 512-token block, each read at an entry. A `[1, 1024]` bias row
  repeated down the block reads the row's entry of the same column. A `[512, 1024]` array read as `[512, 16, 64]` has,
  at `(r, h, d)`, the entry `(r, h · 64 + d)`; read back as `[512, 1024]` it has, at `(r, j)`, the entry of `j`'s head and
  lane. A `[512, 16]` array of per-row statistics, given a unit third axis and repeated along it, reads the statistic
  of `(r, h)` at every `(r, h, g)`. The maximum and the sum over the third axis of a `[512, 16, 16]` array are, at
  `(r, h)`, the fold of `max` (from the accumulator's value) and the sum over `g` of the entries `(r, h, g)`.
-/
import proofs.«107367_j4509715661508_1_alg».proof.Proof.Gen.KernelIdeal
import proofs.«107367_j4509715661508_1_alg».proof.Proof.RowSpec
import proofs.«107367_j4509715661508_1_alg».proof.Proof.LibPairAxes
import Idealize.ShloMosaic.Lib.ValueIdx
import Idealize.ShloMosaic.Lib.Pipeline.Value
import Idealize.ShloMosaic.PureOps.Ideal.Laws

noncomputable section

open scoped BigOperators

namespace Cert.HeadAttn.Kern

open Idealize.ShloMosaic Idealize.ShloMosaic.ValueIdx Cert.KernelIdeal Cert.HeadAttn

variable {α : Type}

/-- The bias row, cast to its own shape and repeated down the 512 rows, at `(r, e)`: the row's entry `e`. -/
theorem bias_rows (b : S1x1024.Idx → α) (hs : S1x1024.ShapeCasts S1x1024) (hb : S1x1024.Broadcasts S512x1024)
    (r : Fin 512) (e : Fin 1024) :
    broadcastTo S512x1024 (shapeCast S1x1024 b hs) hb (ix2 r e) = b (ix2 (0 : Fin 1) e) := by
  rw [shapeCast_self]
  refine broadcastTo_apply b hb (ix2 r e) (ix2 (0 : Fin 1) e) fun a => ?_
  match a with
  | ⟨0, _⟩ => rfl
  | ⟨1, _⟩ => rfl

/-- A `[512, 1024]` array read as 16 heads of 64 lanes: entry `(r, h, d)` is entry `(r, h · 64 + d)`. -/
theorem split_heads (v : S512x1024.Idx → α) (hs : S512x1024.ShapeCasts S512x16x64) (r : Fin 512) (h : Fin 16) (d : Fin 64) :
    shapeCast S512x16x64 v hs (ix3 r h d) = v (ix2 r (col h d)) :=
  shapeCast_apply v hs _ _ (by
    rw [Shape.rowMajor_val_two, Shape.rowMajor_val_three]
    show r.val * 1024 + (h.val * 64 + d.val) = (r.val * 16 + h.val) * 64 + d.val
    omega)

/-- A `[512, 16, 64]` array read as rows of 1024: entry `(r, j)` is the entry of `j`'s head and lane. -/
theorem join_heads (o : S512x16x64.Idx → α) (hs : S512x16x64.ShapeCasts S512x1024) (r : Fin 512) (j : Fin 1024) :
    shapeCast S512x1024 o hs (ix2 r j) = o (ix3 r (headOf j) (laneOf j)) :=
  shapeCast_apply o hs _ _ (by
    rw [Shape.rowMajor_val_three, Shape.rowMajor_val_two]
    show (r.val * 16 + j.val / 64) * 64 + j.val % 64 = r.val * 1024 + j.val
    omega)

/-- A per-row statistic kept on a unit third axis and repeated along it: at `(r, h, g)` the statistic of `(r, h)`. -/
theorem keep_rows (x : S512x16.Idx → α) (hc : S512x16.ShapeCasts S512x16x1) (hb : S512x16x1.Broadcasts S512x16x16)
    (r : Fin 512) (h g : Fin 16) :
    broadcastTo S512x16x16 (shapeCast S512x16x1 x hc) hb (ix3 r h g) = x (ix2 r h) :=
  Cert.LibPairAxes.bcast_cast_ab1 x hc hb r h g

/-- The maximum over the third axis at `(r, h)`: the fold of `max`, from what the pattern of −∞ denotes, over the 16
    entries `(r, h, g)`. -/
theorem max_rows (s : FVec Ideal S512x16x16 .f32) (hred : S512x16x16.Reduces [2] S512x16) (r : Fin 512) (h : Fin 16) :
    multiReduction .maximumf [2] S512x16 s 0xFF800000#32 hred (.inl rfl) rfl (ix2 r h)
      = (Finset.univ : Finset (Fin 16)).fold max floorVal (fun g => s (ix3 r h g)) := by
  refine (Ideal.multiReduction_maximumf_single s _ hred _ _ (ix2 r h)).trans ?_
  refine congrArg (fun f => (Finset.univ : Finset (Fin 16)).fold max floorVal f) (funext fun g => ?_)
  refine congrArg s (funext fun ax => Fin.ext ?_)
  match ax with
  | ⟨0, _⟩ => rfl
  | ⟨1, _⟩ => rfl
  | ⟨2, _⟩ => rfl

/-- The sum over the third axis at `(r, h)`: the sum over `g` of the 16 entries `(r, h, g)`. -/
theorem sum_rows (x : FVec Ideal S512x16x16 .f32) (hred : S512x16x16.Reduces [2] S512x16) (r : Fin 512) (h : Fin 16) :
    multiReduction .add [2] S512x16 x 0x00000000#32 hred (.inl rfl) rfl (ix2 r h) = ∑ g : Fin 16, x (ix3 r h g) := by
  refine (Ideal.multiReduction_add_single x _ hred _ _ (ix2 r h)).trans ?_
  refine Finset.sum_congr rfl fun g _ => ?_
  refine congrArg x (funext fun ax => Fin.ext ?_)
  match ax with
  | ⟨0, _⟩ => rfl
  | ⟨1, _⟩ => rfl
  | ⟨2, _⟩ => rfl

end Cert.HeadAttn.Kern

end
-- ==== Proof.BlockRow.lean ====
/-
  One 512-token block of the kernel, row by row. The body computes, from the block's source rows and the four weight
  matrices and bias rows it holds whole, a `[512, 1024]` output block; nothing in it mixes two rows. Its stages are
  named here as they are spelt in the body — a linear layer of the block, the scaled head-against-head scores, the scores
  less their row maximum, the softmax weights, the heads' mixed value lanes laid out again as rows of 1024 — and each is
  read at an entry in terms of the previous one. Chained, they say: row `r` of the output block is the attention
  row function of row `r` of the source block and of the weights as the body holds them (stored input-major, so entry
  `(k, e)` of a held matrix is weight `e, k`).
-/
import proofs.«107367_j4509715661508_1_alg».proof.Proof.Gen.KernelIdeal.Skeleton
import proofs.«107367_j4509715661508_1_alg».proof.Proof.RowSpec
import proofs.«107367_j4509715661508_1_alg».proof.Proof.BlockProducts
import proofs.«107367_j4509715661508_1_alg».proof.Proof.BlockLayout
import Idealize.ShloMosaic.Lib.ValueIdx
import Idealize.ShloMosaic.PureOps.Ideal.Laws

noncomputable section

open scoped BigOperators

namespace Cert.HeadAttn.Kern

open Idealize.ShloMosaic Idealize.ShloMosaic.ValueIdx Cert.KernelIdeal Cert.KernelIdeal.Gen Cert.HeadAttn

/-- What the body's scale pattern denotes. -/
def kernScale : EReal := Ideal.ofBits .f32 0x3E000000#32

/-! ## The stages -/

/-- A linear layer of the block: the product with a held weight matrix, plus the held bias row on every row. -/
def lin (A : FVec Ideal S512x1024 .bf16) (w : FVec Ideal S1024x1024 .bf16) (b : FVec Ideal S1x1024 .f32) :
    FVec Ideal S512x1024 .f32 :=
  addf (matmul dot_S512x1024_S1024x1024_S512x1024_1_0_0_1_n_n none A
      (shapeCast S1024x1024 w shapeCasts_S1024x1024_S1024x1024) (constant S512x1024 .f32 0x00000000#32))
    (broadcastTo S512x1024 (shapeCast S1x1024 b shapeCasts_S1x1024_S1x1024) broadcasts_S1x1024_S512x1024)

/-- A row of the block read as heads of lanes, in the narrower format (the same numbers). -/
def heads (q : FVec Ideal S512x1024 .f32) : FVec Ideal S512x16x64 .bf16 :=
  truncf .bf16 (shapeCast S512x16x64 q shapeCasts_S512x1024_S512x16x64) bitsLt_bf16_f32

/-- The scaled scores of every head against every head, per token. -/
def scores (q k : FVec Ideal S512x1024 .f32) : FVec Ideal S512x16x16 .f32 :=
  mulf (matmul dot_S512x16x64_S512x16x64_S512x16x16_2_2_1_1_0_0 none (heads q) (heads k)
      (constant S512x16x16 .f32 0x00000000#32))
    (broadcast S512x16x16 (Scalar.ofBits .f32 0x3E000000#32))

/-- The scores less the maximum of their row of 16. -/
def centered (s : FVec Ideal S512x16x16 .f32) : FVec Ideal S512x16x16 .f32 :=
  subf s (broadcastTo S512x16x16
    (shapeCast S512x16x1
      (maximumf (broadcast S512x16 (Scalar.ofBits .f32 0xFF800000#32))
        (multiReduction .maximumf [2] S512x16 s 0xFF800000#32 reduces_S512x16x16_S512x16 (.inl rfl) rfl))
      shapeCasts_S512x16_S512x16x1)
    broadcasts_S512x16x1_S512x16x16)

/-- The softmax weights: the exponentials over their row's sum. -/
def weights (c : FVec Ideal S512x16x16 .f32) : FVec Ideal S512x16x16 .f32 :=
  divf (exp c) (broadcastTo S512x16x16
    (shapeCast S512x16x1
      (multiReduction .add [2] S512x16 (exp c) 0x00000000#32 reduces_S512x16x16_S512x16 (.inl rfl) rfl)
      shapeCasts_S512x16_S512x16x1)
    broadcasts_S512x16x1_S512x16x16)

/-- The heads' weighted value lanes, laid out again as rows of 1024. -/
def mixed (p : FVec Ideal S512x16x16 .f32) (v : FVec Ideal S512x16x64 .bf16) : FVec Ideal S512x1024 .f32 :=
  shapeCast S512x1024
    (matmul dot_S512x16x16_S512x16x64_S512x16x64_2_1_1_2_0_0 none (truncf .bf16 p bitsLt_bf16_f32) v
      (constant S512x16x64 .f32 0x00000000#32))
    shapeCasts_S512x16x64_S512x1024

/-! ## Each stage at an entry -/

theorem lin_apply (A : FVec Ideal S512x1024 .bf16) (w : FVec Ideal S1024x1024 .bf16) (b : FVec Ideal S1x1024 .f32)
    (r : Fin 512) (e : Fin 1024) :
    lin A w b (ix2 r e) = proj (fun k => A (ix2 r k)) (fun e k => w (ix2 k e)) (fun e => b (ix2 (0 : Fin 1) e)) e := by
  unfold lin proj
  rw [addf_apply, matmul_plain, bias_rows, shapeCast_self]

theorem heads_apply (q : FVec Ideal S512x1024 .f32) (r : Fin 512) (h : Fin 16) (d : Fin 64) :
    heads q (ix3 r h d) = q (ix2 r (col h d)) := by
  unfold heads
  rw [truncf_apply, split_heads]

theorem scores_apply (q k : FVec Ideal S512x1024 .f32) (r : Fin 512) (h g : Fin 16) :
    scores q k (ix3 r h g) = score kernScale (fun e => q (ix2 r e)) (fun e => k (ix2 r e)) h g := by
  unfold scores score
  rw [mulf_apply, matmul_lanes, broadcast_apply]
  simp only [heads_apply]
  rfl

theorem centered_apply (s : FVec Ideal S512x16x16 .f32) (r : Fin 512) (h g : Fin 16) :
    centered s (ix3 r h g) = s (ix3 r h g) - top (fun g' => s (ix3 r h g')) := by
  unfold centered top
  rw [subf_apply, keep_rows, maximumf_apply, broadcast_apply, max_rows]
  rfl

theorem weights_apply (c : FVec Ideal S512x16x16 .f32) (r : Fin 512) (h g : Fin 16) :
    weights c (ix3 r h g) = Ideal.div (Ideal.exp (c (ix3 r h g))) (∑ g' : Fin 16, Ideal.exp (c (ix3 r h g'))) := by
  unfold weights
  rw [divf_apply, keep_rows, sum_rows]
  rfl

theorem mixed_apply (p : FVec Ideal S512x16x16 .f32) (v : FVec Ideal S512x16x64 .bf16) (r : Fin 512) (j : Fin 1024) :
    mixed p v (ix2 r j) = ∑ g : Fin 16, p (ix3 r (headOf j) g) * v (ix3 r g (laneOf j)) := by
  unfold mixed
  rw [join_heads, matmul_heads]
  rfl

/-! ## The body's three payloads are these stages -/

theorem pay4_eq (x0 : Vec Ideal S512x1024 .f32) (w1 : Vec Ideal S1024x1024 .bf16) (b1 : Vec Ideal S1x1024 .f32)
    (w2 : Vec Ideal S1024x1024 .bf16) (b2 : Vec Ideal S1x1024 .f32) :
    k0_pay4 x0 w1 b1 w2 b2
      = centered (scores (lin (truncf .bf16 x0 bitsLt_bf16_f32) w1 b1) (lin (truncf .bf16 x0 bitsLt_bf16_f32) w2 b2)) := rfl

theorem pay3_eq (x0 : Vec Ideal S512x1024 .f32) (w3 : Vec Ideal S1024x1024 .bf16) (b3 : Vec Ideal S1x1024 .f32) :
    k0_pay3 x0 w3 b3 = heads (lin (truncf .bf16 x0 bitsLt_bf16_f32) w3 b3) := rfl

theorem pay1_eq (v28 : FVec Ideal S512x16x64 .bf16) (v37 : FVec Ideal S512x16x16 .f32) (w4 : Vec Ideal S1024x1024 .bf16)
    (b4 : Vec Ideal S1x1024 .f32) :
    k0_pay1 v28 v37 w4 b4 = lin (truncf .bf16 (mixed (weights v37) v28) bitsLt_bf16_f32) w4 b4 := rfl

/-! ## The block's output, row by row -/

/-- Row `r` of the block the body stores is the attention row function of row `r` of the source block. -/
theorem block_row (x0 : Vec Ideal S512x1024 .f32) (w1 : Vec Ideal S1024x1024 .bf16) (b1 : Vec Ideal S1x1024 .f32)
    (w2 : Vec Ideal S1024x1024 .bf16) (b2 : Vec Ideal S1x1024 .f32) (w3 : Vec Ideal S1024x1024 .bf16)
    (b3 : Vec Ideal S1x1024 .f32) (w4 : Vec Ideal S1024x1024 .bf16) (b4 : Vec Ideal S1x1024 .f32)
    (r : Fin 512) (e : Fin 1024) :
    k0_pay1 (k0_pay3 x0 w3 b3) (k0_pay4 x0 w1 b1 w2 b2) w4 b4 (ix2 r e)
      = out kernScale (fun k => x0 (ix2 r k))
          (fun e k => w1 (ix2 k e)) (fun e => b1 (ix2 (0 : Fin 1) e))
          (fun e k => w2 (ix2 k e)) (fun e => b2 (ix2 (0 : Fin 1) e))
          (fun e k => w3 (ix2 k e)) (fun e => b3 (ix2 (0 : Fin 1) e))
          (fun e k => w4 (ix2 k e)) (fun e => b4 (ix2 (0 : Fin 1) e)) e := by
  rw [pay1_eq, pay3_eq, pay4_eq, lin_apply]
  unfold out
  refine congrArg (fun f => proj f _ _ e) (funext fun j => ?_)
  rw [truncf_apply, mixed_apply]
  unfold mix
  refine Finset.sum_congr rfl fun g _ => ?_
  rw [weights_apply, heads_apply, lin_apply]
  unfold weight expo
  simp only [centered_apply, scores_apply, lin_apply, truncf_apply]

end Cert.HeadAttn.Kern

end
-- ==== Proof.HeldArrays.lean ====
/-
  What the block's held arrays are when the region starts. Before the region the program transposes each of the four
  `[1024, 1024]` weight matrices and narrows its format (the same numbers on the extended reals), and reads each
  `[1024]` bias as a `[1, 1024]` row. So entry `(k, e)` of a held weight matrix is entry `(e, k)` of the argument,
  and entry `(0, e)` of a held bias row is entry `e` of the argument.
-/
import proofs.«107367_j4509715661508_1_alg».proof.Proof.Gen.KernelIdeal.Frame
import Idealize.ShloMosaic.Lib.StableHlo.Run
import Idealize.ShloMosaic.Lib.Pipeline.Value
import Idealize.ShloMosaic.Lib.ValueIdx

noncomputable section

namespace Cert.HeadAttn.Kern

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The held weight matrix of the query layer: the argument transposed. -/
theorem held_main_v1 (c : Dev nD) :
    @Eq (S1024x1024.Idx → Ideal .bf16) (V m c main_v1)
      (truncf (F := Ideal) .bf16 (transpose S1024x1024 [1, 0] (m ((c : Thread nD τ).loc main_arg1) : S1024x1024.Idx → Ideal .f32)
          transposes_S1024x1024_S1024x1024_1_0) bitsLt_bf16_f32) := by
  show StableHlo.after (hostOps0 (F := Ideal)) (fun b => m (c, b)) (Proc.devRef .tc main_v1) = _
  after_results

theorem held_main_v1_apply (c : Dev nD) (k e : Fin 1024) :
    (V m c main_v1 : S1024x1024.Idx → Ideal .bf16) (ix2 k e)
      = (m ((c : Thread nD τ).loc main_arg1) : S1024x1024.Idx → Ideal .f32) (ix2 e k) := by
  rw [held_main_v1, truncf_apply]
  exact transpose_apply [1, 0] _ transposes_S1024x1024_S1024x1024_1_0 (ix2 k e) (ix2 e k) (fun b => match b with
    | ⟨0, _⟩ => rfl
    | ⟨1, _⟩ => rfl)

/-- The held weight matrix of the key layer: the argument transposed. -/
theorem held_main_v3 (c : Dev nD) :
    @Eq (S1024x1024.Idx → Ideal .bf16) (V m c main_v3)
      (truncf (F := Ideal) .bf16 (transpose S1024x1024 [1, 0] (m ((c : Thread nD τ).loc main_arg3) : S1024x1024.Idx → Ideal .f32)
          transposes_S1024x1024_S1024x1024_1_0) bitsLt_bf16_f32) := by
  show StableHlo.after (hostOps0 (F := Ideal)) (fun b => m (c, b)) (Proc.devRef .tc main_v3) = _
  after_results

theorem held_main_v3_apply (c : Dev nD) (k e : Fin 1024) :
    (V m c main_v3 : S1024x1024.Idx → Ideal .bf16) (ix2 k e)
      = (m ((c : Thread nD τ).loc main_arg3) : S1024x1024.Idx → Ideal .f32) (ix2 e k) := by
  rw [held_main_v3, truncf_apply]
  exact transpose_apply [1, 0] _ transposes_S1024x1024_S1024x1024_1_0 (ix2 k e) (ix2 e k) (fun b => match b with
    | ⟨0, _⟩ => rfl
    | ⟨1, _⟩ => rfl)

/-- The held weight matrix of the value layer: the argument transposed. -/
theorem held_main_v5 (c : Dev nD) :
    @Eq (S1024x1024.Idx → Ideal .bf16) (V m c main_v5)
      (truncf (F := Ideal) .bf16 (transpose S1024x1024 [1, 0] (m ((c : Thread nD τ).loc main_arg5) : S1024x1024.Idx → Ideal .f32)
          transposes_S1024x1024_S1024x1024_1_0) bitsLt_bf16_f32) := by
  show StableHlo.after (hostOps0 (F := Ideal)) (fun b => m (c, b)) (Proc.devRef .tc main_v5) = _
  after_results

theorem held_main_v5_apply (c : Dev nD) (k e : Fin 1024) :
    (V m c main_v5 : S1024x1024.Idx → Ideal .bf16) (ix2 k e)
      = (m ((c : Thread nD τ).loc main_arg5) : S1024x1024.Idx → Ideal .f32) (ix2 e k) := by
  rw [held_main_v5, truncf_apply]
  exact transpose_apply [1, 0] _ transposes_S1024x1024_S1024x1024_1_0 (ix2 k e) (ix2 e k) (fun b => match b with
    | ⟨0, _⟩ => rfl
    | ⟨1, _⟩ => rfl)

/-- The held weight matrix of the output layer: the argument transposed. -/
theorem held_main_v7 (c : Dev nD) :
    @Eq (S1024x1024.Idx → Ideal .bf16) (V m c main_v7)
      (truncf (F := Ideal) .bf16 (transpose S1024x1024 [1, 0] (m ((c : Thread nD τ).loc main_arg7) : S1024x1024.Idx → Ideal .f32)
          transposes_S1024x1024_S1024x1024_1_0) bitsLt_bf16_f32) := by
  show StableHlo.after (hostOps0 (F := Ideal)) (fun b => m (c, b)) (Proc.devRef .tc main_v7) = _
  after_results

theorem held_main_v7_apply (c : Dev nD) (k e : Fin 1024) :
    (V m c main_v7 : S1024x1024.Idx → Ideal .bf16) (ix2 k e)
      = (m ((c : Thread nD τ).loc main_arg7) : S1024x1024.Idx → Ideal .f32) (ix2 e k) := by
  rw [held_main_v7, truncf_apply]
  exact transpose_apply [1, 0] _ transposes_S1024x1024_S1024x1024_1_0 (ix2 k e) (ix2 e k) (fun b => match b with
    | ⟨0, _⟩ => rfl
    | ⟨1, _⟩ => rfl)

/-- The held bias row of the query layer: the argument as one row. -/
theorem held_main_v8 (c : Dev nD) :
    (V m c main_v8 : S1x1024.Idx → Ideal .f32)
      = shapeCast S1x1024 (m ((c : Thread nD τ).loc main_arg2) : S1024.Idx → Ideal .f32) shapeCasts_S1024_S1x1024 := by
  show StableHlo.after (hostOps0 (F := Ideal)) (fun b => m (c, b)) (Proc.devRef .tc main_v8) = _
  after_results
  rfl

theorem held_main_v8_apply (c : Dev nD) (e : Fin 1024) :
    (V m c main_v8 : S1x1024.Idx → Ideal .f32) (ix2 (0 : Fin 1) e)
      = (m ((c : Thread nD τ).loc main_arg2) : S1024.Idx → Ideal .f32) (ix1 e) := by
  rw [held_main_v8]
  exact shapeCast_apply _ shapeCasts_S1024_S1x1024 (ix2 (0 : Fin 1) e) (ix1 e) (by
    rw [Shape.rowMajor_val_one, Shape.rowMajor_val_two]
    show e.val = 0 * 1024 + e.val
    omega)

/-- The held bias row of the key layer: the argument as one row. -/
theorem held_main_v9 (c : Dev nD) :
    (V m c main_v9 : S1x1024.Idx → Ideal .f32)
      = shapeCast S1x1024 (m ((c : Thread nD τ).loc main_arg4) : S1024.Idx → Ideal .f32) shapeCasts_S1024_S1x1024 := by
  show StableHlo.after (hostOps0 (F := Ideal)) (fun b => m (c, b)) (Proc.devRef .tc main_v9) = _
  after_results
  rfl

theorem held_main_v9_apply (c : Dev nD) (e : Fin 1024) :
    (V m c main_v9 : S1x1024.Idx → Ideal .f32) (ix2 (0 : Fin 1) e)
      = (m ((c : Thread nD τ).loc main_arg4) : S1024.Idx → Ideal .f32) (ix1 e) := by
  rw [held_main_v9]
  exact shapeCast_apply _ shapeCasts_S1024_S1x1024 (ix2 (0 : Fin 1) e) (ix1 e) (by
    rw [Shape.rowMajor_val_one, Shape.rowMajor_val_two]
    show e.val = 0 * 1024 + e.val
    omega)

/-- The held bias row of the value layer: the argument as one row. -/
theorem held_main_v10 (c : Dev nD) :
    (V m c main_v10 : S1x1024.Idx → Ideal .f32)
      = shapeCast S1x1024 (m ((c : Thread nD τ).loc main_arg6) : S1024.Idx → Ideal .f32) shapeCasts_S1024_S1x1024 := by
  show StableHlo.after (hostOps0 (F := Ideal)) (fun b => m (c, b)) (Proc.devRef .tc main_v10) = _
  after_results
  rfl

theorem held_main_v10_apply (c : Dev nD) (e : Fin 1024) :
    (V m c main_v10 : S1x1024.Idx → Ideal .f32) (ix2 (0 : Fin 1) e)
      = (m ((c : Thread nD τ).loc main_arg6) : S1024.Idx → Ideal .f32) (ix1 e) := by
  rw [held_main_v10]
  exact shapeCast_apply _ shapeCasts_S1024_S1x1024 (ix2 (0 : Fin 1) e) (ix1 e) (by
    rw [Shape.rowMajor_val_one, Shape.rowMajor_val_two]
    show e.val = 0 * 1024 + e.val
    omega)

/-- The held bias row of the output layer: the argument as one row. -/
theorem held_main_v11 (c : Dev nD) :
    (V m c main_v11 : S1x1024.Idx → Ideal .f32)
      = shapeCast S1x1024 (m ((c : Thread nD τ).loc main_arg8) : S1024.Idx → Ideal .f32) shapeCasts_S1024_S1x1024 := by
  show StableHlo.after (hostOps0 (F := Ideal)) (fun b => m (c, b)) (Proc.devRef .tc main_v11) = _
  after_results
  rfl

theorem held_main_v11_apply (c : Dev nD) (e : Fin 1024) :
    (V m c main_v11 : S1x1024.Idx → Ideal .f32) (ix2 (0 : Fin 1) e)
      = (m ((c : Thread nD τ).loc main_arg8) : S1024.Idx → Ideal .f32) (ix1 e) := by
  rw [held_main_v11]
  exact shapeCast_apply _ shapeCasts_S1024_S1x1024 (ix2 (0 : Fin 1) e) (ix1 e) (by
    rw [Shape.rowMajor_val_one, Shape.rowMajor_val_two]
    show e.val = 0 * 1024 + e.val
    omega)

end Cert.HeadAttn.Kern

end
-- ==== Proof.WholeArray.lean ====
/-
  From the blocks to the whole array. The grid has 32 points; point `t` fetches rows `512 t … 512 t + 511` of the source,
  holds the four weight matrices and bias rows whole (their blocks are the whole arrays at every point), and writes back
  rows `512 t … 512 t + 511` of the result. By the row-by-row reading of the body, what point `t` writes back is block
  `t` of ONE function of the arrays the region finds: row `n` of the result is the attention row function of row `n` of
  the source. The 32 blocks tile the `[16384, 1024]` result (row `n` is in block `n / 512`), so the array ends holding
  that function; with the held arrays read back to the arguments it is a function of the nine arguments alone.
-/
import proofs.«107367_j4509715661508_1_alg».proof.Proof.Gen.KernelIdeal.Frame
import proofs.«107367_j4509715661508_1_alg».proof.Proof.BlockRow
import proofs.«107367_j4509715661508_1_alg».proof.Proof.HeldArrays
import Idealize.ShloMosaic.Lib.Pipeline.Value
import Idealize.ShloMosaic.Lib.Tactic

set_option maxRecDepth 16384

noncomputable section

open scoped BigOperators

namespace Cert.HeadAttn.Kern

open Idealize.ShloMosaic Idealize.ShloMosaic.TcCoe Idealize.SL.Sem Idealize.ShloMosaic.ValueIdx
open Idealize.ShloMosaic.Pipeline (Dat)
open Cert.KernelIdeal Cert.KernelIdeal.Gen Cert.HeadAttn

variable (m : (ℓ : Loc nD τ sig) → Buf (Elt Ideal) ℓ)

theorem hz : (![0, 0] : Fin 2 → Nat) = fun _ => 0 := funext fun a => by fin_cases a <;> rfl

/-- The printed index maps, decided over the 32 grid points: the source and result windows move down the rows with the
    point; every held window stays at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Every block of rows is some point's. -/
theorem idx_onto : ∀ q : Fin 32, ∃ t : Fin cfg0.N, win0_9.index t = ![q.val, 0] :=
  (by decide +kernel : ∀ q : Fin 32, ∃ t : Fin grid0.N, win0_9.index t = ![q.val, 0])

/-! ## The windows' blocks -/

/-- The source window's block at point `t` is rows `512 t … 512 t + 511` of the source. -/
theorem src_block_apply (c : Dev nD) (t : Fin cfg0.N) (x : S512x1024.Idx) (k : S16384x1024.Idx)
    (hk0 : (k 0).val = t.val * 512 + (x 0).val) (hk1 : (k 1).val = (x 1).val) :
    (iblk m c 0 t : Vec Ideal S512x1024 .f32) x = (V m c main_arg0 : S16384x1024.Idx → Ideal .f32) k := by
  obtain ⟨h0, h1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (x 0).val = (k 0).val; rw [h0, hk0]; omega
  | ⟨1, _⟩ => show win0_0.index t (1 : Fin 2) * 1024 + 1 * (x 1).val = (k 1).val; rw [h1, hk1]; omega

/-- Window 1's block is its whole array, at every point. -/
theorem held_block_1 (c : Dev nD) (t : Fin cfg0.N) :
    @Eq (Vec Ideal S1024x1024 .bf16) (iblk m c 1 t) (V m c main_v1) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v1 _ = V m c main_v1 x
  congr 1
  funext a
  apply Fin.ext
  match a with
  | ⟨0, _⟩ => show win0_1.index t (0 : Fin 2) * 1024 + 1 * (x 0).val = (x 0).val; rw [h1_0]; omega
  | ⟨1, _⟩ => show win0_1.index t (1 : Fin 2) * 1024 + 1 * (x 1).val = (x 1).val; rw [h1_1]; omega

/-- Window 2's block is its whole array, at every point. -/
theorem held_block_2 (c : Dev nD) (t : Fin cfg0.N) :
    @Eq (Vec Ideal S1x1024 .f32) (iblk m c 2 t) (V m c main_v8) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v8 _ = V m c main_v8 x
  congr 1
  funext a
  apply Fin.ext
  match a with
  | ⟨0, _⟩ => show win0_2.index t (0 : Fin 2) * 1 + 1 * (x 0).val = (x 0).val; rw [h2_0]; omega
  | ⟨1, _⟩ => show win0_2.index t (1 : Fin 2) * 1024 + 1 * (x 1).val = (x 1).val; rw [h2_1]; omega

/-- Window 3's block is its whole array, at every point. -/
theorem held_block_3 (c : Dev nD) (t : Fin cfg0.N) :
    @Eq (Vec Ideal S1024x1024 .bf16) (iblk m c 3 t) (V m c main_v3) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v3 _ = V m c main_v3 x
  congr 1
  funext a
  apply Fin.ext
  match a with
  | ⟨0, _⟩ => show win0_3.index t (0 : Fin 2) * 1024 + 1 * (x 0).val = (x 0).val; rw [h3_0]; omega
  | ⟨1, _⟩ => show win0_3.index t (1 : Fin 2) * 1024 + 1 * (x 1).val = (x 1).val; rw [h3_1]; omega

/-- Window 4's block is its whole array, at every point. -/
theorem held_block_4 (c : Dev nD) (t : Fin cfg0.N) :
    @Eq (Vec Ideal S1x1024 .f32) (iblk m c 4 t) (V m c main_v9) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v9 _ = V m c main_v9 x
  congr 1
  funext a
  apply Fin.ext
  match a with
  | ⟨0, _⟩ => show win0_4.index t (0 : Fin 2) * 1 + 1 * (x 0).val = (x 0).val; rw [h4_0]; omega
  | ⟨1, _⟩ => show win0_4.index t (1 : Fin 2) * 1024 + 1 * (x 1).val = (x 1).val; rw [h4_1]; omega

/-- Window 5's block is its whole array, at every point. -/
theorem held_block_5 (c : Dev nD) (t : Fin cfg0.N) :
    @Eq (Vec Ideal S1024x1024 .bf16) (iblk m c 5 t) (V m c main_v5) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v5 _ = V m c main_v5 x
  congr 1
  funext a
  apply Fin.ext
  match a with
  | ⟨0, _⟩ => show win0_5.index t (0 : Fin 2) * 1024 + 1 * (x 0).val = (x 0).val; rw [h5_0]; omega
  | ⟨1, _⟩ => show win0_5.index t (1 : Fin 2) * 1024 + 1 * (x 1).val = (x 1).val; rw [h5_1]; omega

/-- Window 6's block is its whole array, at every point. -/
theorem held_block_6 (c : Dev nD) (t : Fin cfg0.N) :
    @Eq (Vec Ideal S1x1024 .f32) (iblk m c 6 t) (V m c main_v10) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v10 _ = V m c main_v10 x
  congr 1
  funext a
  apply Fin.ext
  match a with
  | ⟨0, _⟩ => show win0_6.index t (0 : Fin 2) * 1 + 1 * (x 0).val = (x 0).val; rw [h6_0]; omega
  | ⟨1, _⟩ => show win0_6.index t (1 : Fin 2) * 1024 + 1 * (x 1).val = (x 1).val; rw [h6_1]; omega

/-- Window 7's block is its whole array, at every point. -/
theorem held_block_7 (c : Dev nD) (t : Fin cfg0.N) :
    @Eq (Vec Ideal S1024x1024 .bf16) (iblk m c 7 t) (V m c main_v7) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v7 _ = V m c main_v7 x
  congr 1
  funext a
  apply Fin.ext
  match a with
  | ⟨0, _⟩ => show win0_7.index t (0 : Fin 2) * 1024 + 1 * (x 0).val = (x 0).val; rw [h7_0]; omega
  | ⟨1, _⟩ => show win0_7.index t (1 : Fin 2) * 1024 + 1 * (x 1).val = (x 1).val; rw [h7_1]; omega

/-- Window 8's block is its whole array, at every point. -/
theorem held_block_8 (c : Dev nD) (t : Fin cfg0.N) :
    @Eq (Vec Ideal S1x1024 .f32) (iblk m c 8 t) (V m c main_v11) := by
  obtain ⟨h0_0, h0_1, h1_0, h1_1, h2_0, h2_1, h3_0, h3_1, h4_0, h4_1, h5_0, h5_1, h6_0, h6_1, h7_0, h7_1, h8_0, h8_1, h9_0, h9_1⟩ := idx_facts t
  funext x
  unfold iblk
  rw [View.read_apply]
  show V m c main_v11 _ = V m c main_v11 x
  congr 1
  funext a
  apply Fin.ext
  match a with
  | ⟨0, _⟩ => show win0_8.index t (0 : Fin 2) * 1 + 1 * (x 0).val = (x 0).val; rw [h8_0]; omega
  | ⟨1, _⟩ => show win0_8.index t (1 : Fin 2) * 1024 + 1 * (x 1).val = (x 1).val; rw [h8_1]; omega

/-! ## The result as one function of the arrays the region finds -/

/-- Row `i 0` of the result, entry `i 1`: the attention row function of row `i 0` of the source `A0`, over the held weight
    matrices (stored input-major) and bias rows. -/
def regionOut (A0 : S16384x1024.Idx → Ideal .f32) (x1 : S1024x1024.Idx → Ideal .bf16) (x2 : S1x1024.Idx → Ideal .f32)
    (x3 : S1024x1024.Idx → Ideal .bf16) (x4 : S1x1024.Idx → Ideal .f32) (x5 : S1024x1024.Idx → Ideal .bf16)
    (x6 : S1x1024.Idx → Ideal .f32) (x7 : S1024x1024.Idx → Ideal .bf16) (x8 : S1x1024.Idx → Ideal .f32) :
    S16384x1024.Idx → Ideal .f32 := fun i =>
  out kernScale (fun k => A0 (ix2 (⟨(i 0).val, (i 0).isLt⟩ : Fin 16384) k))
    (fun e k => x1 (ix2 k e)) (fun e => x2 (ix2 (0 : Fin 1) e))
    (fun e k => x3 (ix2 k e)) (fun e => x4 (ix2 (0 : Fin 1) e))
    (fun e k => x5 (ix2 k e)) (fun e => x6 (ix2 (0 : Fin 1) e))
    (fun e k => x7 (ix2 k e)) (fun e => x8 (ix2 (0 : Fin 1) e))
    (⟨(i 1).val, (i 1).isLt⟩ : Fin 1024)

/-- One entry of a block the body stores, against the array entry it lands on: if the block's row `y 0` is row `i 0` of
    `A0` and the columns agree, the stored entry is `regionOut` there. -/
theorem point_eq (x0 : Vec Ideal S512x1024 .f32) (A0 : S16384x1024.Idx → Ideal .f32)
    (x1 : Vec Ideal S1024x1024 .bf16) (x2 : Vec Ideal S1x1024 .f32) (x3 : Vec Ideal S1024x1024 .bf16)
    (x4 : Vec Ideal S1x1024 .f32) (x5 : Vec Ideal S1024x1024 .bf16) (x6 : Vec Ideal S1x1024 .f32)
    (x7 : Vec Ideal S1024x1024 .bf16) (x8 : Vec Ideal S1x1024 .f32) (y : S512x1024.Idx) (i : S16384x1024.Idx)
    (hrow : ∀ k : Fin 1024, x0 (ix2 (⟨(y 0).val, (y 0).isLt⟩ : Fin 512) k) = A0 (ix2 (⟨(i 0).val, (i 0).isLt⟩ : Fin 16384) k))
    (hcol : (y 1).val = (i 1).val) :
    k0_pay1 (k0_pay3 x0 x5 x6) (k0_pay4 x0 x1 x2 x3 x4) x7 x8 y = regionOut A0 x1 x2 x3 x4 x5 x6 x7 x8 i := by
  have hy : y = ix2 (⟨(y 0).val, (y 0).isLt⟩ : Fin 512) (⟨(y 1).val, (y 1).isLt⟩ : Fin 1024) :=
    funext fun a => by match a with | ⟨0, _⟩ => rfl | ⟨1, _⟩ => rfl
  refine (congrArg (k0_pay1 (k0_pay3 x0 x5 x6) (k0_pay4 x0 x1 x2 x3 x4) x7 x8) hy).trans ?_
  rw [block_row]
  unfold regionOut
  have hc : (⟨(y 1).val, (y 1).isLt⟩ : Fin 1024) = ⟨(i 1).val, (i 1).isLt⟩ := Fin.ext hcol
  rw [hc, funext hrow]

/-- WHAT POINT `t` WRITES BACK is block `t` of `regionOut` of the arrays as the region finds them. -/
theorem flushed_eq (c : Dev nD) (t : Fin cfg0.N) :
    (dats m 0 c).flushed 9 t = ((cfg0.win 9).blk t).view.read (Elt Ideal)
      (regionOut (V m c main_arg0) (V m c main_v1) (V m c main_v8) (V m c main_v3) (V m c main_v9)
        (V m c main_v5) (V m c main_v10) (V m c main_v7) (V m c main_v11)) := by
  show (cfg0.win 9).cut (grid0.coords t) ((dats m 0 c).after 9 t) = _
  rw [after0_9]
  unfold out0_9
  rw [View.canon_unit_zero hz]
  simp only [View.ld_unit_zero (S := S512x1024) hz, View.ld_unit_zero (S := S1024x1024) hz, View.ld_unit_zero (S := S1x1024) hz]
  rw [held_block_1 m c t, held_block_2 m c t, held_block_3 m c t, held_block_4 m c t, held_block_5 m c t, held_block_6 m c t, held_block_7 m c t, held_block_8 m c t]
  obtain ⟨h0_0, h0_1, h1_0, h1_1, h2_0, h2_1, h3_0, h3_1, h4_0, h4_1, h5_0, h5_1, h6_0, h6_1, h7_0, h7_1, h8_0, h8_1, h9_0, h9_1⟩ := idx_facts t
  funext j
  show k0_pay1 (k0_pay3 (iblk m c 0 t) (V m c main_v5) (V m c main_v10))
      (k0_pay4 (iblk m c 0 t) (V m c main_v1) (V m c main_v8) (V m c main_v3) (V m c main_v9)) (V m c main_v7) (V m c main_v11) j
    = regionOut (V m c main_arg0) (V m c main_v1) (V m c main_v8) (V m c main_v3) (V m c main_v9)
        (V m c main_v5) (V m c main_v10) (V m c main_v7) (V m c main_v11) (((cfg0.win 9).blk t).view.emb j)
  refine point_eq (iblk m c 0 t) (V m c main_arg0) _ _ _ _ _ _ _ _ j _ (fun k => ?_) ?_
  · refine src_block_apply m c t _ _ ?_ rfl
    show win0_9.index t (0 : Fin 2) * 512 + 1 * (j 0).val = t.val * 512 + (j 0).val
    rw [h9_0]; omega
  · show (j 1).val = win0_9.index t (1 : Fin 2) * 1024 + 1 * (j 1).val
    rw [h9_1]; omega

/-- An index of the result is in point `t`'s block iff each coordinate is in the block's range on its axis. -/
theorem mem_blk (t : Fin cfg0.N) (i : S16384x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v12).slice (win0_9.rect t)).set ↔ _
  rw [View.set_slice_whole, Rect.mem_set_unit]
  exact Iff.rfl

/-- The 32 blocks of 512 rows cover the result: row `n` is in the block of point `n / 512`. -/
theorem covered (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  obtain ⟨t, ht⟩ := idx_onto ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- THE ARRAY after the region: `regionOut` of the arrays the region finds. -/
theorem region_final (c : Dev nD) :
    (dats m 0 c).arrAt 9 cfg0.N
      = regionOut (V m c main_arg0) (V m c main_v1) (V m c main_v8) (V m c main_v3) (V m c main_v9)
          (V m c main_v5) (V m c main_v10) (V m c main_v7) (V m c main_v11) :=
  (dats m 0 c).arrAt_eq_of_cover 9 _ (fun t _ => flushed_eq m c t) covered

end Cert.HeadAttn.Kern

end
-- ==== Proof.ArraySpec.lean ====
/-
  The whole result as one function of the nine arguments: row `n` of the `[16384, 1024]` result is the attention row
  function of row `n` of the source, over the four weight matrices (stored output-major, as the arguments are) and the
  four biases, with the score scale `c` left as a parameter. Both programs' runs are stated with this one term.
-/
import proofs.«107367_j4509715661508_1_alg».proof.Proof.RowSpec
import Idealize.ShloMosaic.Lib.ValueIdx

noncomputable section

namespace Cert.HeadAttn

open Idealize.ShloMosaic Idealize.ShloMosaic.ValueIdx

/-- The shapes of the source and the result before its last reshape, of a weight matrix, and of a bias. -/
abbrev SRows : Shape := ⟨2, ![16384, 1024]⟩
abbrev SMat : Shape := ⟨2, ![1024, 1024]⟩
abbrev SBias : Shape := ⟨1, ![1024]⟩

/-- Entry `(n, e)` of the result: entry `e` of the row function of row `n` of the source. -/
def result (c : EReal) (a0 : SRows.Idx → EReal) (a1 : SMat.Idx → EReal) (a2 : SBias.Idx → EReal) (a3 : SMat.Idx → EReal)
    (a4 : SBias.Idx → EReal) (a5 : SMat.Idx → EReal) (a6 : SBias.Idx → EReal) (a7 : SMat.Idx → EReal)
    (a8 : SBias.Idx → EReal) : SRows.Idx → EReal := fun i =>
  out c (fun k => a0 (ix2 (⟨(i 0).val, (i 0).isLt⟩ : Fin 16384) k))
    (fun e k => a1 (ix2 e k)) (fun e => a2 (ix1 e))
    (fun e k => a3 (ix2 e k)) (fun e => a4 (ix1 e))
    (fun e k => a5 (ix2 e k)) (fun e => a6 (ix1 e))
    (fun e k => a7 (ix2 e k)) (fun e => a8 (ix1 e))
    (⟨(i 1).val, (i 1).isLt⟩ : Fin 1024)

end Cert.HeadAttn

end
-- ==== Proof.KernelRun.lean ====
/-
  The kernel program's run, read. The region leaves its result array at the row-by-row function of the arrays it finds;
  read back through the host lines before the region (a held weight matrix is the argument transposed, a held bias row
  the argument as one row) that is `result` of the nine arguments, at the body's scale. The one host line after the
  region reads the `[16384, 1024]` array as `[16384, 16, 64]`. So every weakly fair execution ends with the program's
  result at that reshape of `result`, and the nine arguments as they were.
-/
import proofs.«107367_j4509715661508_1_alg».proof.Proof.WholeArray
import proofs.«107367_j4509715661508_1_alg».proof.Proof.ArraySpec
import Idealize.ShloMosaic.Lib.StableHlo.Run
import Idealize.ShloMosaic.Lib.Pipeline.FrameSuffix

set_option maxRecDepth 16384

noncomputable section

namespace Cert.HeadAttn.Kern

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.HeadAttn

variable (m : (ℓ : Loc nD τ sig) → Buf (Elt Ideal) ℓ) (ρ : Dev nD → PrngReg)

/-- The region's result in terms of the arguments: the held arrays read back through the host lines before the region. -/
theorem regionOut_args (c : Dev nD) :
    regionOut (V m c main_arg0) (V m c main_v1) (V m c main_v8) (V m c main_v3) (V m c main_v9)
        (V m c main_v5) (V m c main_v10) (V m c main_v7) (V m c main_v11)
      = result kernScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  unfold regionOut result
  rw [V_main_arg0 m c]
  have w0 : (fun (e k : Fin 1024) => (V m c main_v1 : S1024x1024.Idx → Ideal .bf16) (ix2 k e))
      = fun e k => (m ((c : Thread nD τ).loc main_arg1) : S1024x1024.Idx → Ideal .f32) (ix2 e k) :=
    funext fun e => funext fun k => held_main_v1_apply m c k e
  have w1 : (fun (e k : Fin 1024) => (V m c main_v3 : S1024x1024.Idx → Ideal .bf16) (ix2 k e))
      = fun e k => (m ((c : Thread nD τ).loc main_arg3) : S1024x1024.Idx → Ideal .f32) (ix2 e k) :=
    funext fun e => funext fun k => held_main_v3_apply m c k e
  have w2 : (fun (e k : Fin 1024) => (V m c main_v5 : S1024x1024.Idx → Ideal .bf16) (ix2 k e))
      = fun e k => (m ((c : Thread nD τ).loc main_arg5) : S1024x1024.Idx → Ideal .f32) (ix2 e k) :=
    funext fun e => funext fun k => held_main_v5_apply m c k e
  have w3 : (fun (e k : Fin 1024) => (V m c main_v7 : S1024x1024.Idx → Ideal .bf16) (ix2 k e))
      = fun e k => (m ((c : Thread nD τ).loc main_arg7) : S1024x1024.Idx → Ideal .f32) (ix2 e k) :=
    funext fun e => funext fun k => held_main_v7_apply m c k e
  have b0 : (fun (e : Fin 1024) => (V m c main_v8 : S1x1024.Idx → Ideal .f32) (ix2 (0 : Fin 1) e))
      = fun e => (m ((c : Thread nD τ).loc main_arg2) : S1024.Idx → Ideal .f32) (ix1 e) :=
    funext fun e => held_main_v8_apply m c e
  have b1 : (fun (e : Fin 1024) => (V m c main_v9 : S1x1024.Idx → Ideal .f32) (ix2 (0 : Fin 1) e))
      = fun e => (m ((c : Thread nD τ).loc main_arg4) : S1024.Idx → Ideal .f32) (ix1 e) :=
    funext fun e => held_main_v9_apply m c e
  have b2 : (fun (e : Fin 1024) => (V m c main_v10 : S1x1024.Idx → Ideal .f32) (ix2 (0 : Fin 1) e))
      = fun e => (m ((c : Thread nD τ).loc main_arg6) : S1024.Idx → Ideal .f32) (ix1 e) :=
    funext fun e => held_main_v10_apply m c e
  have b3 : (fun (e : Fin 1024) => (V m c main_v11 : S1x1024.Idx → Ideal .f32) (ix2 (0 : Fin 1) e))
      = fun e => (m ((c : Thread nD τ).loc main_arg8) : S1024.Idx → Ideal .f32) (ix1 e) :=
    funext fun e => held_main_v11_apply m c e
  rw [w0, w1, w2, w3, b0, b1, b2, b3]

/-- The program's result: the host line after the region reshapes the region's array. -/
theorem tail_eq (c : Dev nD) :
    Pipeline.afterTail₀ cfgs (dats m) 0 (V0 m) [hostOps1] c main_v13
      = shapeCast S16384x16x64 (result kernScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
          shapeCasts_S16384x1024_S16384x16x64 := by
  unfold Pipeline.afterTail₀
  show StableHlo.after (hostOps1 (F := Ideal)) _ (Proc.devRef .tc main_v13) = _
  after_results
  refine congrArg (fun z => shapeCast S16384x16x64 z shapeCasts_S16384x1024_S16384x16x64) ?_
  exact (Pipeline.withArrays_arr spec0 launch0.win.arr_inj c _ _ 9).trans ((region_final m c).trans (regionOut_args m c))

/-- The run: the result at the reshape of `result` of the arguments, the arguments unchanged. -/
theorem run : θ_run defs (onTc (τ := τ) (main (F := Ideal))) ⟨m, fun _ => 0, ρ⟩ fun r => ∀ c : Dev nD,
      r.2.mem ((c : Thread nD τ).loc main_v13)
        = shapeCast S16384x16x64 (result kernScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
            shapeCasts_S16384x1024_S16384x16x64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨
      ((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.HeadAttn.Kern

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.RefRow.lean ====
/-
  The reference program's result, row by row. Row `n` of what the reference computes is the specification's row
  function `Cert.HeadAttn.out` applied to row `n` of the source and to the four weight matrices and biases: three
  linear layers give the query, key and value rows; each is read as 16 heads of 64 lanes; the scaled inner products
  of the heads' query and key lanes are the scores; a row of scores becomes weights by subtracting its maximum,
  exponentiating and dividing by the sum; the weighted sums of the value lanes are laid out again as one row of 1024
  entries, which a last linear layer maps to the result. Each stage below reads one intermediate value of the
  reference at explicit coordinates and identifies it with the corresponding piece of the specification.
-/
import proofs.«107367_j4509715661508_1_alg».proof.Proof.Gen.ReferenceIdeal.Read
import proofs.«107367_j4509715661508_1_alg».proof.Proof.RowSpec
import proofs.«107367_j4509715661508_1_alg».proof.Proof.LibRowMax
import Idealize.ShloMosaic.Lib.ValueIdx
import Idealize.ShloMosaic.PureOps.Ideal.Laws

noncomputable section

open scoped BigOperators

namespace Cert.HeadAttn.Ref

open Idealize.ShloMosaic Idealize.ShloMosaic.ValueIdx Cert.ReferenceIdeal Cert.ReferenceIdeal.Gen Cert.ReferenceIdeal.Read Cert.HeadAttn

/-- The scale as the reference spells it: 1 / sqrt 64. -/
def refScale : EReal := Ideal.div (Ideal.ofBits .f32 0x3F800000#32) (Ideal.sqrt (Ideal.ofBits .f32 0x42800000#32))

/-! ## Linear layers -/

/-- A linear layer of the reference, read at row `n`: the transposed weight matrix contracts against the row, the bias
    is broadcast along the rows. For any left operand `X`, entry `e` of row `n` is `Σₖ X n k · W e k + b e`. -/
theorem lin_at (X : (⟨S16384x1024, .f32⟩ : BufTy).Contents (Elt Ideal)) (W : (⟨S1024x1024, .f32⟩ : BufTy).Contents (Elt Ideal))
    (b : (⟨S1024, .f32⟩ : BufTy).Contents (Elt Ideal)) (n : Fin 16384) (e : Fin 1024) :
    val_main_v4 (F := Ideal) X W b (ix2 n e)
      = proj (fun k => X (ix2 n k)) (fun e k => W (ix2 e k)) (fun e => b (ix1 e)) e := by
  rw [val_main_v4_apply, val_main_v1_apply, val_main_v3_apply, val_main_v2_apply]
  unfold proj
  simp only [Ideal.addf_def]
  congr 1
  · refine Finset.sum_congr rfl fun k _ => ?_
    rw [val_main_v0_apply]
    congr 1
    · exact congrArg X (funext fun a => by match a with | ⟨0, _⟩ => rfl | ⟨1, _⟩ => rfl)
    · exact congrArg W (funext fun a => by match a with | ⟨0, _⟩ => rfl | ⟨1, _⟩ => rfl)
  · exact congrArg b (funext fun a => by match a with | ⟨0, _⟩ => rfl)

section stages

variable (x0 : (⟨S16384x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x1024, .f32⟩ : BufTy).Contents (Elt Ideal))
  (x8 : (⟨S1024, .f32⟩ : BufTy).Contents (Elt Ideal)) (n : Fin 16384)

/-- The query row of token `n`. -/
def qRow : Fin 1024 → EReal := proj (fun k => x0 (ix2 n k)) (fun e k => x1 (ix2 e k)) (fun e => x2 (ix1 e))
/-- The key row of token `n`. -/
def kRow : Fin 1024 → EReal := proj (fun k => x0 (ix2 n k)) (fun e k => x3 (ix2 e k)) (fun e => x4 (ix1 e))
/-- The value row of token `n`. -/
def vRow : Fin 1024 → EReal := proj (fun k => x0 (ix2 n k)) (fun e k => x5 (ix2 e k)) (fun e => x6 (ix1 e))
/-- The scores of token `n`: head against head. -/
def sc : Fin 16 → Fin 16 → EReal := score refScale (qRow x0 x1 x2 n) (kRow x0 x3 x4 n)

theorem q_at (e : Fin 1024) : val_main_v4 (F := Ideal) x0 x1 x2 (ix2 n e) = qRow x0 x1 x2 n e := lin_at x0 x1 x2 n e
theorem k_at (e : Fin 1024) : val_main_v9 (F := Ideal) x0 x3 x4 (ix2 n e) = kRow x0 x3 x4 n e := lin_at x0 x3 x4 n e
theorem v_at (e : Fin 1024) : val_main_v14 (F := Ideal) x0 x5 x6 (ix2 n e) = vRow x0 x5 x6 n e := lin_at x0 x5 x6 n e

/-! ## Heads and lanes -/

/-- Reading a row of 1024 entries as 16 heads of 64 lanes: lane `d` of head `h` of row `n` is entry `h · 64 + d` of row `n`. -/
theorem split_idx (h : Fin 16) (d : Fin 64) : idx_main_v15 (ix3 n h d) = ix2 n (col h d) := by
  have hn := n.isLt
  have hh := h.isLt
  have hd := d.isLt
  funext a
  refine Fin.ext ?_
  match a with
  | ⟨0, _⟩ => show ((n.val * 16 + h.val) * 64 + d.val) / 1024 = n.val; omega
  | ⟨1, _⟩ => show ((n.val * 16 + h.val) * 64 + d.val) % 1024 = h.val * 64 + d.val; omega

theorem q3_at (h : Fin 16) (d : Fin 64) : val_main_v15 (F := Ideal) x0 x1 x2 (ix3 n h d) = qRow x0 x1 x2 n (col h d) := by
  rw [val_main_v15_apply, split_idx, q_at]
theorem k3_at (h : Fin 16) (d : Fin 64) : val_main_v16 (F := Ideal) x0 x3 x4 (ix3 n h d) = kRow x0 x3 x4 n (col h d) := by
  rw [val_main_v16_apply, show idx_main_v16 (ix3 n h d) = ix2 n (col h d) from split_idx n h d, k_at]
theorem v3_at (h : Fin 16) (d : Fin 64) : val_main_v17 (F := Ideal) x0 x5 x6 (ix3 n h d) = vRow x0 x5 x6 n (col h d) := by
  rw [val_main_v17_apply, show idx_main_v17 (ix3 n h d) = ix2 n (col h d) from split_idx n h d, v_at]

/-! ## Scores -/

/-- The broadcast scale is `1 / sqrt 64` at every index. -/
theorem scale_at (h g : Fin 16) : val_main_v21 (F := Ideal) (ix3 n h g) = refScale := by
  rw [val_main_v21_apply]
  rfl

/-- The score of head `h` against head `g`. -/
theorem score_at (h g : Fin 16) : val_main_v22 (F := Ideal) x0 x1 x2 x3 x4 (ix3 n h g) = sc x0 x1 x2 x3 x4 n h g := by
  rw [val_main_v22_apply, val_main_v20_apply, scale_at]
  unfold sc score
  simp only [Ideal.mulf_def]
  congr 1
  refine Finset.sum_congr rfl fun d _ => ?_
  have el : lidx_main_v20 (ix3 n h g) d = ix3 n h d :=
    funext fun a => by match a with | ⟨0, _⟩ => rfl | ⟨1, _⟩ => rfl | ⟨2, _⟩ => rfl
  have er : ridx_main_v20 (ix3 n h g) d = ix3 n g d :=
    funext fun a => by match a with | ⟨0, _⟩ => rfl | ⟨1, _⟩ => rfl | ⟨2, _⟩ => rfl
  rw [el, er, q3_at, k3_at]

/-! ## The row maximum -/

/-- The reduction by maximum over the last axis, read at head `h` of token `n`: the fold of `max` from the pattern of
    −∞ over that head's 16 scores. -/
theorem rowmax_at (h : Fin 16) :
    val_main_v23 (F := Ideal) x0 x1 x2 x3 x4 (ix2 n h)
      = (Finset.univ : Finset (Fin 16)).fold max floorVal (fun g => sc x0 x1 x2 x3 x4 n h g) := by
  unfold val_main_v23
  refine (Cert.LibRowMax.hostReduce_maximumf_single _ _ reducesTo_S16384x16x16_S16384x16_d2 (by decide) h_S_ (ix2 n h)).trans ?_
  refine congrArg (fun f => (Finset.univ : Finset (Fin 16)).fold max floorVal f) (funext fun g => ?_)
  refine Eq.trans (congrArg (val_main_v22 (F := Ideal) x0 x1 x2 x3 x4) (funext fun a => ?_)) (score_at x0 x1 x2 x3 x4 n h g)
  match a with
  | ⟨0, _⟩ => rfl
  | ⟨1, _⟩ => rfl
  | ⟨2, _⟩ => rfl

/-- The maximum the reference subtracts: the reduction, taken once more against −∞. -/
theorem top_at (h : Fin 16) :
    val_main_v25 (F := Ideal) x0 x1 x2 x3 x4 (ix2 n h) = top (sc x0 x1 x2 x3 x4 n h) := by
  rw [val_main_v25_apply, val_main_v24_apply, rowmax_at]
  rfl

/-- The maximum, broadcast back along the scores' last axis. -/
theorem top3_at (h g : Fin 16) :
    val_main_v27 (F := Ideal) x0 x1 x2 x3 x4 (ix3 n h g) = top (sc x0 x1 x2 x3 x4 n h) := by
  rw [val_main_v27_apply, val_main_v26_apply]
  refine Eq.trans (congrArg (val_main_v25 (F := Ideal) x0 x1 x2 x3 x4) (funext fun a => ?_)) (top_at x0 x1 x2 x3 x4 n h)
  match a with
  | ⟨0, _⟩ => rfl
  | ⟨1, _⟩ => rfl

/-! ## The softmax -/

/-- The exponential of a score less its row's maximum. -/
theorem expo_at (h g : Fin 16) :
    val_main_v29 (F := Ideal) x0 x1 x2 x3 x4 (ix3 n h g) = expo (sc x0 x1 x2 x3 x4 n) h g := by
  rw [val_main_v29_apply, val_main_v28_apply, score_at, top3_at]
  rfl

/-- The sum of a row's exponentials: the reduction by sum starts from the pattern of zero. -/
theorem denom_at (h : Fin 16) :
    val_main_v30 (F := Ideal) x0 x1 x2 x3 x4 (ix2 n h) = ∑ g : Fin 16, expo (sc x0 x1 x2 x3 x4 n) h g := by
  rw [val_main_v30_apply]
  have hz : val_main_cst_3 (F := Ideal) (Shape.Idx.first h_S_) = 0 := Ideal.ofBits_zero_f32
  rw [hz, zero_add]
  refine Finset.sum_congr rfl fun g _ => ?_
  refine Eq.trans (congrArg (val_main_v29 (F := Ideal) x0 x1 x2 x3 x4) (funext fun a => ?_)) (expo_at x0 x1 x2 x3 x4 n h g)
  match a with
  | ⟨0, _⟩ => rfl
  | ⟨1, _⟩ => rfl
  | ⟨2, _⟩ => rfl

/-- The sum, broadcast back along the last axis. -/
theorem denom3_at (h g : Fin 16) :
    val_main_v32 (F := Ideal) x0 x1 x2 x3 x4 (ix3 n h g) = ∑ g' : Fin 16, expo (sc x0 x1 x2 x3 x4 n) h g' := by
  rw [val_main_v32_apply, val_main_v31_apply]
  refine Eq.trans (congrArg (val_main_v30 (F := Ideal) x0 x1 x2 x3 x4) (funext fun a => ?_)) (denom_at x0 x1 x2 x3 x4 n h)
  match a with
  | ⟨0, _⟩ => rfl
  | ⟨1, _⟩ => rfl

/-- The softmax weight of head `h` on head `g`. -/
theorem weight_at (h g : Fin 16) :
    val_main_v33 (F := Ideal) x0 x1 x2 x3 x4 (ix3 n h g) = weight (sc x0 x1 x2 x3 x4 n) h g := by
  rw [val_main_v33_apply, expo_at, denom3_at]
  rfl

/-! ## Mixing the value lanes -/

/-- Lane `d` of head `h`'s output: the weights of `h` against every head `g`, times lane `d` of `g`'s value. -/
theorem mix3_at (h : Fin 16) (d : Fin 64) :
    val_main_v34 (F := Ideal) x0 x1 x2 x3 x4 x5 x6 (ix3 n h d)
      = ∑ g : Fin 16, weight (sc x0 x1 x2 x3 x4 n) h g * vRow x0 x5 x6 n (col g d) := by
  rw [val_main_v34_apply]
  refine Finset.sum_congr rfl fun g _ => ?_
  have el : lidx_main_v34 (ix3 n h d) g = ix3 n h g :=
    funext fun a => by match a with | ⟨0, _⟩ => rfl | ⟨1, _⟩ => rfl | ⟨2, _⟩ => rfl
  have er : ridx_main_v34 (ix3 n h d) g = ix3 n g d :=
    funext fun a => by match a with | ⟨0, _⟩ => rfl | ⟨1, _⟩ => rfl | ⟨2, _⟩ => rfl
  rw [el, er, weight_at, v3_at]

/-- Laying the 16 heads of 64 lanes out again as one row: entry `j` of row `n` is lane `j mod 64` of head `j / 64`. -/
theorem join_idx (j : Fin 1024) : idx_main_v35 (ix2 n j) = ix3 n (headOf j) (laneOf j) := by
  have hn := n.isLt
  have hj := j.isLt
  funext a
  refine Fin.ext ?_
  match a with
  | ⟨0, _⟩ => show (n.val * 1024 + j.val) / 1024 = n.val; omega
  | ⟨1, _⟩ => show (n.val * 1024 + j.val) / 64 % 16 = j.val / 64; omega
  | ⟨2, _⟩ => show (n.val * 1024 + j.val) % 64 = j.val % 64; omega

/-- The mixed row of token `n`. -/
theorem mix_at (j : Fin 1024) :
    val_main_v35 (F := Ideal) x0 x1 x2 x3 x4 x5 x6 (ix2 n j)
      = mix (weight (sc x0 x1 x2 x3 x4 n)) (vRow x0 x5 x6 n) j := by
  rw [val_main_v35_apply, join_idx, mix3_at]
  rfl

/-! ## The output layer -/

/-- The reference's result at row `n`: the last linear layer applied to the mixed row. -/
theorem out_at (e : Fin 1024) :
    val_main_v40 (F := Ideal) x0 x1 x2 x3 x4 x5 x6 x7 x8 (ix2 n e)
      = proj (mix (weight (sc x0 x1 x2 x3 x4 n)) (vRow x0 x5 x6 n)) (fun e k => x7 (ix2 e k)) (fun e => x8 (ix1 e)) e := by
  refine (lin_at (val_main_v35 (F := Ideal) x0 x1 x2 x3 x4 x5 x6) x7 x8 n e).trans ?_
  refine congrArg (fun r => proj r (fun e k => x7 (ix2 e k)) (fun e => x8 (ix1 e)) e) (funext fun j => ?_)
  exact mix_at x0 x1 x2 x3 x4 x5 x6 n j

end stages

/-- Row `n` of the reference's result is the specification's row function of row `n` of the source, the four weight
    matrices and the four biases, with the scale `1 / sqrt 64`. -/
theorem ref_row (x0 : (⟨S16384x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (n : Fin 16384) (e : Fin 1024) :
    val_main_v40 (F := Ideal) x0 x1 x2 x3 x4 x5 x6 x7 x8 (ix2 n e)
      = out refScale (fun k => x0 (ix2 n k)) (fun e k => x1 (ix2 e k)) (fun e => x2 (ix1 e)) (fun e k => x3 (ix2 e k)) (fun e => x4 (ix1 e))
          (fun e k => x5 (ix2 e k)) (fun e => x6 (ix1 e)) (fun e k => x7 (ix2 e k)) (fun e => x8 (ix1 e)) e :=
  out_at x0 x1 x2 x3 x4 x5 x6 x7 x8 n e

end Cert.HeadAttn.Ref

end
-- ==== Proof.Scale.lean ====
/-
  The two spellings of the score scale denote one number. One program multiplies the scores by the pattern of
  `0.125`; the other divides the pattern of `1` by the square root of the pattern of `64`. On the extended reals
  `√64 = 8` and `1 / 8 = 0.125`, exactly.
-/
import Idealize.ShloMosaic.PureOps.Ideal

noncomputable section

namespace Cert.HeadAttn

open Idealize.ShloMosaic

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `1.0` denotes `1`. -/
theorem ofBits_one : Ideal.ofBits .f32 0x3F800000#32 = ((1 : ℝ) : EReal) := by
  simp [Ideal.ofBits, Ideal.ieee, -EReal.coe_mul]; norm_num

/-- The pattern of `64.0` denotes the real `64`. -/
theorem ofBits_sixtyfour : Ideal.ofBits .f32 0x42800000#32 = ((64 : ℝ) : EReal) := by
  simp [Ideal.ofBits, Ideal.ieee, -EReal.coe_mul]; norm_num

/-- `1 / √64` is `0.125`: the square root of `64` is `8`, and the quotient of `1` by the real `8` is `1/8`. -/
theorem scale_eq :
    Ideal.div (Ideal.ofBits .f32 0x3F800000#32) (Ideal.sqrt (Ideal.ofBits .f32 0x42800000#32))
      = Ideal.ofBits .f32 0x3E000000#32 := by
  have h8 : Real.sqrt 64 = 8 := by
    rw [show (64 : ℝ) = 8 ^ 2 by norm_num]; exact Real.sqrt_sq (by norm_num)
  rw [ofBits_sixtyfour, ofBits_one, ofBits_eighth, Ideal.sqrt_coe, if_neg (by norm_num), h8,
    Ideal.div_coe (by norm_num : (8 : ℝ) ≠ 0), ← EReal.coe_mul]
  norm_num

end Cert.HeadAttn

end
-- ==== Proof.RefArray.lean ====
/-
  The reference program's result as one function of its arguments. Row by row the reference's `[16384, 1024]` value
  before its last reshape is the attention row function of the source's row; so as a whole array it is `result` of the
  nine arguments at the reference's scale `1 / √64`, which is the number `0.125` the kernel's body multiplies by.
-/
import proofs.«107367_j4509715661508_1_alg».proof.Proof.RefRow
import proofs.«107367_j4509715661508_1_alg».proof.Proof.ArraySpec
import proofs.«107367_j4509715661508_1_alg».proof.Proof.Scale

noncomputable section

namespace Cert.HeadAttn.Ref

open Idealize.ShloMosaic Idealize.ShloMosaic.ValueIdx Cert.ReferenceIdeal Cert.ReferenceIdeal.Gen Cert.ReferenceIdeal.Read Cert.HeadAttn

/-- The reference's value before its last reshape is `result` of its arguments, at the scale `0.125`. -/
theorem ref_result (x0 : (⟨S16384x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    val_main_v40 (F := Ideal) x0 x1 x2 x3 x4 x5 x6 x7 x8 = result (Ideal.ofBits .f32 0x3E000000#32) x0 x1 x2 x3 x4 x5 x6 x7 x8 := by
  funext i
  have hi : i = ix2 (⟨(i 0).val, (i 0).isLt⟩ : Fin 16384) (⟨(i 1).val, (i 1).isLt⟩ : Fin 1024) :=
    funext fun a => by match a with | ⟨0, _⟩ => rfl | ⟨1, _⟩ => rfl
  refine (congrArg (val_main_v40 (F := Ideal) x0 x1 x2 x3 x4 x5 x6 x7 x8) hi).trans ?_
  rw [ref_row, ← scale_eq]
  rfl

end Cert.HeadAttn.Ref

end
-- ==== Proof.lean ====
/-
  Attention across the 16 heads of each token, over 16384 tokens of width 1024: a kernel that fuses the three input
  projections, the head-against-head scaled scores, their softmax, the weighted mix of the value lanes and the output
  projection into one body per block of 512 tokens, against the same computation written with whole-array operations.

  On the extended reals the two are one function of the nine arguments (the source, four weight matrices, four biases).
  No token's result depends on another token, so everything is said row by row: row `n` of the `[16384, 1024]` result is
  `Cert.HeadAttn.out` of row `n` of the source — each linear layer `x ↦ x · Wᵀ + b`, head `h`'s score against head `g` the
  inner product of their 64 query and key lanes times the scale, a row of 16 scores turned into weights by subtracting its
  maximum, exponentiating and dividing by the row's sum, the value lanes mixed by those weights, one more linear layer.
  The kernel's side: the body's stages read at an entry (three matrix products as sums, the row maximum as a fold, the
  row sum as a sum, the layout steps as index arithmetic), chained into the row function of a block's row; the 32 blocks
  of 512 rows tile the result; the held weights are the arguments transposed and the held biases the arguments as rows;
  the last host line reads the array as `[16384, 16, 64]`. The reference's side: its operations read at an entry, chained
  into the same row function. The two differ only in how the scale is spelt — the pattern of `0.125` against
  `1 / √64` — and `√64 = 8` exactly. Nothing in the argument uses that the inputs are finite: every step is a reading
  of one side's term, none moves a factor across a sum.

  The three frames: each kernel program's by its generated frame run, the reference's by its generated run with the
  result dropped. The idealization's ledger is empty, so that conjunct is `True`.
-/
import proofs.«107367_j4509715661508_1_alg».proof.Defs
import proofs.«107367_j4509715661508_1_alg».proof.Proof.Gen.Kernel
import proofs.«107367_j4509715661508_1_alg».proof.Proof.Gen.Kernel.Skeleton
import proofs.«107367_j4509715661508_1_alg».proof.Proof.Gen.Kernel.Launch
import proofs.«107367_j4509715661508_1_alg».proof.Proof.Gen.Kernel.Points
import proofs.«107367_j4509715661508_1_alg».proof.Proof.Gen.Kernel.Frame
import proofs.«107367_j4509715661508_1_alg».proof.Proof.Gen.KernelIdeal
import proofs.«107367_j4509715661508_1_alg».proof.Proof.Gen.KernelIdeal.Skeleton
import proofs.«107367_j4509715661508_1_alg».proof.Proof.Gen.KernelIdeal.Launch
import proofs.«107367_j4509715661508_1_alg».proof.Proof.Gen.KernelIdeal.Points
import proofs.«107367_j4509715661508_1_alg».proof.Proof.Gen.KernelIdeal.Frame
import proofs.«107367_j4509715661508_1_alg».proof.Proof.Gen.ReferenceIdeal
import proofs.«107367_j4509715661508_1_alg».proof.Proof.Gen.ReferenceIdeal.Run
import proofs.«107367_j4509715661508_1_alg».proof.Proof.Gen.ReferenceIdeal.Read
import proofs.«107367_j4509715661508_1_alg».proof.Proof.Gen.Pre_finite_inputs
import proofs.«107367_j4509715661508_1_alg».proof.Proof.KernelRun
import proofs.«107367_j4509715661508_1_alg».proof.Proof.RefArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: its ledger is empty. -/
theorem preserves : Cert.preserves_Kernel_KernelIdeal := trivial

/-- From memories agreeing on the nine arguments both idealized programs end with their results at one array: the
    `[16384, 16, 64]` reading of `Cert.HeadAttn.result` of the arguments at the scale `0.125`. -/
theorem algebraic : Cert.algebraic_KernelIdeal_ReferenceIdeal := by
  intro m ρ m' ρ' _ hagree
  refine ⟨fun c => shapeCast Cert.KernelIdeal.S16384x16x64
      (Cert.HeadAttn.result Cert.HeadAttn.Kern.kernScale
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)))
      Cert.KernelIdeal.Gen.shapeCasts_S16384x1024_S16384x16x64, Cert.HeadAttn.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v41_eq, e0, e1, e2, e3, e4, e5, e6, e7, e8]
  unfold Cert.ReferenceIdeal.Read.val_main_v41
  rw [Cert.HeadAttn.Ref.ref_result]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
